-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S8x2048x2048 : Shape := ⟨3, ![8, 2048, 2048]⟩
abbrev S256x256 : Shape := ⟨2, ![256, 256]⟩
abbrev S256 : Shape := ⟨1, ![256]⟩
abbrev S_ : Shape := ⟨0, ![]⟩
abbrev S8x2048 : Shape := ⟨2, ![8, 2048]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  reducesTo_S8x2048x2048_S8x2048_d2 : S8x2048x2048.ReducesTo [2] S8x2048
  bcast_S_S8x2048 : S_.BroadcastsInDim S8x2048 (![] : Fin 0 → Fin S8x2048.rank)
  reducesTo_S8x2048_S_d0_1 : S8x2048.ReducesTo [0, 1] S_

variable [Facts]

def fn_part1 {F : FTy → Type} [FloatOps F] (main_arg1 : FVec F S8x2048x2048 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_cst_6 : FVec F S_ .f32 := constant S_ .f32 0x00000000#32
  let main_v19 : FVec F S8x2048 .f32 := (fun x v => Host.reduceAdd x v reducesTo_S8x2048x2048_S8x2048_d2 h_S_) main_arg1 main_cst_6
  let main_cst_7 : FVec F S_ .f32 := constant S_ .f32 0x3727C5AC#32
  let main_v20 : FVec F S8x2048 .f32 := broadcastInDim S8x2048 ![] bcast_S_S8x2048 main_cst_7
  let main_v21 : FVec F S8x2048 .f32 := addf main_v19 main_v20
  let main_cst_8 : FVec F S_ .f32 := constant S_ .f32 0x00000000#32
  let main_v22 : FVec F S8x2048 .f32 := broadcastInDim S8x2048 ![] bcast_S_S8x2048 main_cst_8
  let main_v23 : IVec S8x2048 1 := cmpf .ogt main_v21 main_v22
  let main_c_9 : IVec S_ 1 := constantI S_ 1 1#1
  let main_v24 : IVec S_ 1 := (fun x v => Host.reduce IntOp.andi x v reducesTo_S8x2048_S_d0_1 h_S_) main_v23 main_c_9
  let main_v25 : IVec S_ 1 := andi main_v18 main_v24
  main_v25

def fn {F : FTy → Type} [FloatOps F] (main_arg0 : FVec F S8x2048x256 .f32) (main_arg1 : FVec F S8x2048x2048 .f32) (main_arg2 : FVec F S256x256 .f32) (main_arg3 : FVec F S256 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_v13 main_v16
-- ==== Kernel.lean ====
abbrev S8x2048x256 : Shape := ⟨3, ![8, 2048, 256]⟩
abbrev S8x2048x2048 : Shape := ⟨3, ![8, 2048, 2048]⟩
abbrev S256x256 : Shape := ⟨2, ![256, 256]⟩
abbrev S256 : Shape := ⟨1, ![256]⟩
abbrev S1x256 : Shape := ⟨2, ![1, 256]⟩
abbrev S1x2048x2048 : Shape := ⟨3, ![1, 2048, 2048]⟩
abbrev S1x2048x256 : Shape := ⟨3, ![1, 2048, 256]⟩
abbrev S2048x2048 : Shape := ⟨2, ![2048, 2048]⟩
abbrev S2048 : Shape := ⟨1, ![2048]⟩
abbrev S2048x1 : Shape := ⟨2, ![2048, 1]⟩
abbrev S2048x256 : Shape := ⟨2, ![2048, 256]⟩
abbrev S2048x1024 : Shape := ⟨2, ![2048, 1024]⟩
abbrev S1024x256 : Shape := ⟨2, ![1024, 256]⟩

abbrev nBuf : Space → Nat
  | .hbm => 6
  | .vmem => 8
  | .smem => 0
  | _ => 0

abbrev bufTy : (tb : Table) → Fin (tcTables nBuf tb) → BufTy
  | .hbm, ⟨0, _⟩ => ⟨S8x2048x256, .f32⟩
  | .hbm, ⟨1, _⟩ => ⟨S8x2048x2048, .f32⟩
  | .hbm, ⟨2, _⟩ => ⟨S256x256, .f32⟩
  | .hbm, ⟨3, _⟩ => ⟨S256, .f32⟩
  | .hbm, ⟨4, _⟩ => ⟨S1x256, .f32⟩
  | .hbm, ⟨5, _⟩ => ⟨S8x2048x256, .f32⟩
  | .local _ .vmem, ⟨0, _⟩ => ⟨S1x2048x2048, .f32⟩
  | .local _ .vmem, ⟨1, _⟩ => ⟨S1x2048x2048, .f32⟩
  | .local _ .vmem, ⟨2, _⟩ => ⟨S1x2048x256, .f32⟩
  | .local _ .vmem, ⟨3, _⟩ => ⟨S1x2048x256, .f32⟩
  | .local _ .vmem, ⟨4, _⟩ => ⟨S256x256, .f32⟩
  | .local _ .vmem, ⟨5, _⟩ => ⟨S1x256, .f32⟩
  | .local _ .vmem, ⟨6, _⟩ => ⟨S1x2048x256, .f32⟩
  | .local _ .vmem, ⟨7, _⟩ => ⟨S1x2048x256, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S256_S1x256 : S256.ShapeCasts S1x256
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  reduces_S2048x2048_S2048 : S2048x2048.Reduces [1] S2048
  shapeCasts_S2048_S2048x1 : S2048.ShapeCasts S2048x1
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  broadcasts_S2048x1_S2048x256 : S2048x1.Broadcasts S2048x256
  slices_S2048x2048_o0_0_S2048x1024 : S2048x2048.Slices ![0, 0] S2048x1024
  slices_S2048x256_o0_0_S1024x256 : S2048x256.Slices ![0, 0] S1024x256
  slices_S2048x2048_o0_1024_S2048x1024 : S2048x2048.Slices ![0, 1024] S2048x1024
  slices_S2048x256_o1024_0_S1024x256 : S2048x256.Slices ![1024, 0] S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  shapeCasts_S2048x256_S1x2048x256 : S2048x256.ShapeCasts S1x2048x256
  dot_S2048x256_S256x256_S2048x256_1_0_0_1_n_n_wf : DotDims.WF S2048x256 S256x256 S2048x256 [1] [0] [0] [1] [] []
  dot_S2048x1024_S1024x256_S2048x256_1_0_0_1_n_n_wf : DotDims.WF S2048x1024 S1024x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x2048.size a ≤ S8x2048x2048.size a
  hwx0_0 : ∀ i : grid0.Coords, EltTy.bits .f32 = 32 ∨ (Rect.block (s := S8x2048x2048) S1x2048x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S8x2048x256.size a
  hwx0_1 : ∀ i : grid0.Coords, EltTy.bits .f32 = 32 ∨ (Rect.block (s := S8x2048x256) S1x2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x256.size a ≤ S8x2048x256.size a
  hwx0_4 : ∀ i : grid0.Coords, EltTy.bits .f32 = 32 ∨ (Rect.block (s := S8x2048x256) S1x2048x256.size (cc0_transform_4 i) (hinb0_4 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf

abbrev win0_0 : Pipeline.Window sig grid0 :=
  Pipeline.Window.ofSpec (Memref.whole main_arg1) S1x2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x2048x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x256 : Shape := ⟨3, ![8, 2048, 256]⟩
abbrev S8x2048x2048 : Shape := ⟨3, ![8, 2048, 2048]⟩
abbrev S256x256 : Shape := ⟨2, ![256, 256]⟩
abbrev S256 : Shape := ⟨1, ![256]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩
abbrev S1x1x256 : Shape := ⟨3, ![1, 1, 256]⟩

abbrev nBuf : Space → Nat
  | .hbm => 23
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S8x2048x2048, .f32⟩
  | .hbm, ⟨2, _⟩ => ⟨S256x256, .f32⟩
  | .hbm, ⟨3, _⟩ => ⟨S256, .f32⟩
  | .hbm, ⟨4, _⟩ => ⟨S_, .f32⟩
  | .hbm, ⟨5, _⟩ => ⟨S8x2048, .f32⟩
  | .hbm, ⟨6, _⟩ => ⟨S_, .f32⟩
  | .hbm, ⟨7, _⟩ => ⟨S8x2048, .f32⟩
  | .hbm, ⟨8, _⟩ => ⟨S8x2048, .f32⟩
  | .hbm, ⟨9, _⟩ => ⟨S_, .f32⟩
  | .hbm, ⟨10, _⟩ => ⟨S8x2048, .f32⟩
  | .hbm, ⟨11, _⟩ => ⟨S8x2048, .f32⟩
  | .hbm, ⟨12, _⟩ => ⟨S8x2048x1, .f32⟩
  | .hbm, ⟨13, _⟩ => ⟨S8x2048x2048, .f32⟩
  | .hbm, ⟨14, _⟩ => ⟨S8x2048x2048, .f32⟩
  | .hbm, ⟨15, _⟩ => ⟨S8x1x2048, .f32⟩
  | .hbm, ⟨16, _⟩ => ⟨S8x2048x2048, .f32⟩
  | .hbm, ⟨17, _⟩ => ⟨S8x2048x2048, .f32⟩
  | .hbm, ⟨18, _⟩ => ⟨S8x2048x256, .f32⟩
  | .hbm, ⟨19, _⟩ => ⟨S8x2048x256, .f32⟩
  | .hbm, ⟨20, _⟩ => ⟨S1x1x256, .f32⟩
  | .hbm, ⟨21, _⟩ => ⟨S8x2048x256, .f32⟩
  | .hbm, ⟨22, _⟩ => ⟨S8x2048x256, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  bcast_S256_S1x1x256_2 : S256.BroadcastsInDim S1x1x256 (![2] : Fin 1 → Fin S1x1x256.rank)
  bcast_S1x1x256_S8x2048x256_0_1_2 : S1x1x256.BroadcastsInDim S8x2048x256 (![0, 1, 2] : Fin 3 → Fin S8x2048x256.rank)
  dot_S8x2048x256_S256x256_S8x2048x256_2_0_01_1_n_n_wf : DotDims.WF S8x2048x256 S256x256 S8x2048x256 [2] [0] [0, 1] [1] [] []
  dot_S8x2048x2048_S8x2048x256_S8x2048x256_2_1_1_2_0_0_wf : DotDims.WF S8x2048x2048 S8x2048x256 S8x2048x256 [2] [1] [1] [2] [0] [0]

variable [Facts₀]

def dot_S8x2048x256_S256x256_S8x2048x256_2_0_01_1_n_n : DotDims S8x2048x256 S256x256 S8x2048x256 where
  lhsContracting := [2]
  rhsContracting := [0]
  lhsNonContracting := [0, 1]
  rhsNonContracting := [1]
  lhsBatch := []
  rhsBatch := []
  wf := dot_S8x2048x256_S256x256_S8x2048x256_2_0_01_1_n_n_wf
def dot_S8x2048x2048_S8x2048x256_S8x2048x256_2_1_1_2_0_0 : DotDims S8x2048x2048 S8x2048x256 S8x2048x256 where
  lhsContracting := [2]
  rhsContracting := [1]
  lhsNonContracting := [1]
  rhsNonContracting := [2]
  lhsBatch := [0]
  rhsBatch := [0]
  wf := dot_S8x2048x2048_S8x2048x256_S8x2048x256_2_1_1_2_0_0_wf

class Facts : Prop extends Facts₀ where

variable [Facts]
-- ==== Proof.KernelPayload.lean ====
/-
  The kernel body's one stored value, read entry by entry over the extended reals.

  At a grid point the body holds one batch's adjacency block `a` (2048 × 2048), feature block `x` (2048 × 256), the
  weights `w` (256 × 256) and the bias row. It forms the row sums of `a` shifted by ε, their inverse square roots
  `d`, the support `x w` scaled row by row by `d`, the product of `a` with that scaled support taken in two halves of
  1024 columns each and added, scales row `n` of the result by `d n`, and adds the bias. Changes of float format are
  the identity here, a matrix product into a zero accumulator is the plain sum over the contracted index, and the
  two half sums join into one sum over all 2048 columns.
-/
import proofs.«109411_j46084999086083_2_alg».proof.Proof.Gen.KernelIdeal.Skeleton
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Payload

open Cert.KernelIdeal Cert.KernelIdeal.Gen Idealize.ShloMosaic Idealize.ShloMosaic.ValueIdx

variable {α : Type}

/-! ## Layout operations of a column, read at an index -/

/-- A vector `[a]` cast to a column `[a, 1]` reads, at `(i, u)`, the vector at `i`. -/
theorem colCast_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(i, j)`, the column at `(i, 0)`. -/
theorem colBroadcast_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- The sum of a matrix `[a, b]` along its rows, read at row `n`: the `b` entries of that row added. -/
theorem rowSum_apply {a b : ℕ} (src : FVec Ideal (⟨2, ![a, b]⟩ : Shape) .f32)
    (h : (⟨2, ![a, b]⟩ : Shape).Reduces [(1 : Fin 2)] ⟨1, ![a]⟩) (hφ : FKind.Formats FTy.f32)
    (hacc : (0x00000000#32 : BitVec 32) = FKind.add.neutral .f32 hφ) (n : Fin a) :
    multiReduction .add [(1 : Fin 2)] ⟨1, ![a]⟩ src 0x00000000#32 h hφ hacc (ix1 n) = ∑ k : Fin b, src (ix2 n k) := by
  refine (Ideal.multiReduction_add_single src 0x00000000#32 h hφ hacc (ix1 n)).trans ?_
  refine Finset.sum_congr rfl fun k _ => congrArg src (funext fun c => Fin.ext ?_)
  rw [h.lift_val]
  match c with
  | ⟨0, _⟩ => simp [Shape.Reduces.liftVal]
  | ⟨1, _⟩ => simp [Shape.Reduces.liftVal]

/-! ## The two matrix products, read at an entry -/

variable [Cert.KernelIdeal.Facts]

/-- On the row axis the left operand's index of the first product is the output's row. -/
theorem xw_lhs_row (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl

/-- On the column axis the right operand's index of the first product is the output's column. -/
theorem xw_rhs_col (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The same two facts for the half products. -/
theorem half_lhs_row (i : S2048x256.Idx) (q : dot_S2048x1024_S1024x256_S2048x256_1_0_0_1_n_n.contr.Idx) :
    (dot_S2048x1024_S1024x256_S2048x256_1_0_0_1_n_n.lhsIdx i q 0).val = (i 0).val := by
  unfold DotDims.lhsIdx
  rw [dif_neg (show ¬(0 : Fin S2048x1024.rank) ∈ dot_S2048x1024_S1024x256_S2048x256_1_0_0_1_n_n.lhsBatch by decide), dif_pos (show (0 : Fin S2048x1024.rank) ∈ dot_S2048x1024_S1024x256_S2048x256_1_0_0_1_n_n.lhsNonContracting by decide)]
  rfl

theorem half_rhs_col (i : S2048x256.Idx) (q : dot_S2048x1024_S1024x256_S2048x256_1_0_0_1_n_n.contr.Idx) :
    (dot_S2048x1024_S1024x256_S2048x256_1_0_0_1_n_n.rhsIdx i q 1).val = (i 1).val := by
  unfold DotDims.rhsIdx
  rw [dif_neg (show ¬(1 : Fin S1024x256.rank) ∈ dot_S2048x1024_S1024x256_S2048x256_1_0_0_1_n_n.rhsBatch by decide), dif_pos (show (1 : Fin S1024x256.rank) ∈ dot_S2048x1024_S1024x256_S2048x256_1_0_0_1_n_n.rhsNonContracting by decide)]
  rfl

/-- The features times the weights, into a zero accumulator: entry `(p, q)` is `∑ k, l (p, k) · r (k, q)` over the 256
    contracted columns. -/
theorem matmul_xw_apply (l : FVec Ideal S2048x256 .bf16) (r : FVec Ideal S256x256 .bf16) (p : Fin 2048) (q : Fin 256) :
    matmul dot_S2048x256_S256x256_S2048x256_1_0_0_1_n_n none l r (constant (F := Ideal) S2048x256 .f32 0x00000000#32) (ix2 p q)
      = ∑ k : Fin 256, l (ix2 p k) * r (ix2 k q) := by
  simp only [matmul]
  rw [Ideal.matmul_constant_zero_apply, ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q) ((contrEquiv1 dot_S2048x256_S256x256_S2048x256_1_0_0_1_n_n 256 rfl rfl).symm k) = ix2 p k := funext fun a => Fin.ext (by
    match a with
    | ⟨0, _⟩ => exact xw_lhs_row _ _
    | ⟨1, _⟩ => exact (dot_S2048x256_S256x256_S2048x256_1_0_0_1_n_n.lhsIdx_val_of_single rfl _ _).trans hk)
  have er : dot_S2048x256_S256x256_S2048x256_1_0_0_1_n_n.rhsIdx (ix2 p q) ((contrEquiv1 dot_S2048x256_S256x256_S2048x256_1_0_0_1_n_n 256 rfl rfl).symm k) = ix2 k q := funext fun a => Fin.ext (by
    match a with
    | ⟨0, _⟩ => exact (dot_S2048x256_S256x256_S2048x256_1_0_0_1_n_n.rhsIdx_val_of_single rfl _ _).trans hk
    | ⟨1, _⟩ => exact xw_rhs_col _ _)
  rw [el, er]

/-- Half of the adjacency block times half of the scaled support, into a zero accumulator: entry `(p, q)` is
    `∑ k, l (p, k) · r (k, q)` over the half's 1024 columns. -/
theorem matmul_half_apply (l : FVec Ideal S2048x1024 .bf16) (r : FVec Ideal S1024x256 .bf16) (p : Fin 2048) (q : Fin 256) :
    matmul dot_S2048x1024_S1024x256_S2048x256_1_0_0_1_n_n none l r (constant (F := Ideal) S2048x256 .f32 0x00000000#32) (ix2 p q)
      = ∑ k : Fin 1024, l (ix2 p k) * r (ix2 k q) := by
  simp only [matmul]
  rw [Ideal.matmul_constant_zero_apply, ← Equiv.sum_comp (contrEquiv1 dot_S2048x1024_S1024x256_S2048x256_1_0_0_1_n_n 1024 rfl rfl).symm]
  refine Finset.sum_congr rfl fun k _ => ?_
  have hk := contrEquiv1_symm_val dot_S2048x1024_S1024x256_S2048x256_1_0_0_1_n_n 1024 rfl rfl k
  have el : dot_S2048x1024_S1024x256_S2048x256_1_0_0_1_n_n.lhsIdx (ix2 p q) ((contrEquiv1 dot_S2048x1024_S1024x256_S2048x256_1_0_0_1_n_n 1024 rfl rfl).symm k) = ix2 p k := funext fun a => Fin.ext (by
    match a with
    | ⟨0, _⟩ => exact half_lhs_row _ _
    | ⟨1, _⟩ => exact (dot_S2048x1024_S1024x256_S2048x256_1_0_0_1_n_n.lhsIdx_val_of_single rfl _ _).trans hk)
  have er : dot_S2048x1024_S1024x256_S2048x256_1_0_0_1_n_n.rhsIdx (ix2 p q) ((contrEquiv1 dot_S2048x1024_S1024x256_S2048x256_1_0_0_1_n_n 1024 rfl rfl).symm k) = ix2 k q := funext fun a => Fin.ext (by
    match a with
    | ⟨0, _⟩ => exact (dot_S2048x1024_S1024x256_S2048x256_1_0_0_1_n_n.rhsIdx_val_of_single rfl _ _).trans hk
    | ⟨1, _⟩ => exact half_rhs_col _ _)
  rw [el, er]

/-! ## The body's value, piece by piece

Below, `a` is the adjacency block with its unit batch axis dropped (2048 × 2048) and `x` the feature block likewise
(2048 × 256); `w` is the weight block. -/

/-- The inverse square roots of the shifted row sums, as the column the body keeps them in: at `(m, 0)` it is
    `rsqrt ((∑ k, a (m, k)) + ε)`. -/
theorem scale_apply (a : FVec Ideal S2048x2048 .f32) (hφ : FKind.Formats FTy.f32)
    (hacc : (0x00000000#32 : BitVec 32) = FKind.add.neutral .f32 hφ) (m : Fin 2048) (u : Fin 1) :
    rsqrt (addf (shapeCast S2048x1 (multiReduction .add [1] S2048 a 0x00000000#32 reduces_S2048x2048_S2048 hφ hacc) shapeCasts_S2048_S2048x1)
        (broadcast S2048x1 (FloatOps.ofBits (F := Ideal) .f32 0x3727C5AC#32))) (ix2 m u)
      = Ideal.rsqrt ((∑ k : Fin 2048, a (ix2 m k)) + Ideal.ofBits .f32 0x3727C5AC#32) := by
  show Ideal.rsqrt (shapeCast S2048x1 (multiReduction .add [1] S2048 a 0x00000000#32 reduces_S2048x2048_S2048 hφ hacc) shapeCasts_S2048_S2048x1 (ix2 m u)
      + Ideal.ofBits .f32 0x3727C5AC#32) = _
  refine congrArg (fun s => Ideal.rsqrt (s + Ideal.ofBits .f32 0x3727C5AC#32)) ?_
  exact (colCast_apply _ shapeCasts_S2048_S2048x1 m u).trans (rowSum_apply a reduces_S2048x2048_S2048 hφ hacc m)

/-- The support scaled row by row: at `(m, o)` it is `(∑ i, x (m, i) · w (i, o)) · rsqrt ((∑ k, a (m, k)) + ε)`.
    The roundings to the narrower format on the way into and out of the product are the identity. -/
theorem scaledSupport_apply (a : FVec Ideal S2048x2048 .f32) (x : FVec Ideal S2048x256 .f32) (w : FVec Ideal S256x256 .f32)
    (hφ : FKind.Formats FTy.f32) (hacc : (0x00000000#32 : BitVec 32) = FKind.add.neutral .f32 hφ) (m : Fin 2048) (o : Fin 256) :
    truncf .bf16 (mulf
        (matmul dot_S2048x256_S256x256_S2048x256_1_0_0_1_n_n none (truncf .bf16 x bitsLt_bf16_f32) (truncf .bf16 w bitsLt_bf16_f32)
          (constant (F := Ideal) S2048x256 .f32 0x00000000#32))
        (broadcastTo S2048x256
          (rsqrt (addf (shapeCast S2048x1 (multiReduction .add [1] S2048 a 0x00000000#32 reduces_S2048x2048_S2048 hφ hacc) shapeCasts_S2048_S2048x1)
            (broadcast S2048x1 (FloatOps.ofBits (F := Ideal) .f32 0x3727C5AC#32))))
          broadcasts_S2048x1_S2048x256)) bitsLt_bf16_f32 (ix2 m o)
      = (∑ i : Fin 256, x (ix2 m i) * w (ix2 i o)) * Ideal.rsqrt ((∑ k : Fin 2048, a (ix2 m k)) + Ideal.ofBits .f32 0x3727C5AC#32) := by
  rw [truncf_apply, mulf_apply]
  refine congrArg₂ (· * ·) ?_ ?_
  · exact matmul_xw_apply _ _ m o
  · exact (colBroadcast_apply _ broadcasts_S2048x1_S2048x256 m o).trans (scale_apply a hφ hacc m 0)

/-- One summand of the big product, written once: column `k` of the adjacency row `n` against the scaled support's row `k`. -/
def term (a : FVec Ideal S2048x2048 .f32) (x : FVec Ideal S2048x256 .f32) (w : FVec Ideal S256x256 .f32)
    (n : Fin 2048) (o : Fin 256) (k : Fin 2048) : EReal :=
  a (ix2 n k) * ((∑ i : Fin 256, x (ix2 k i) * w (ix2 i o)) * Ideal.rsqrt ((∑ j : Fin 2048, a (ix2 k j)) + Ideal.ofBits .f32 0x3727C5AC#32))

/-- The first half of the big product (columns 0 … 1023 of the adjacency block against rows 0 … 1023 of the scaled
    support), into a zero accumulator, at `(n, o)`. -/
theorem half0_apply (a : FVec Ideal S2048x2048 .f32) (x : FVec Ideal S2048x256 .f32) (w : FVec Ideal S256x256 .f32)
    (hφ : FKind.Formats FTy.f32) (hacc : (0x00000000#32 : BitVec 32) = FKind.add.neutral .f32 hφ) (n : Fin 2048) (o : Fin 256) :
    matmul dot_S2048x1024_S1024x256_S2048x256_1_0_0_1_n_n none
        (truncf .bf16 (extractStridedSlice S2048x1024 ![0, 0] a slices_S2048x2048_o0_0_S2048x1024) bitsLt_bf16_f32)
        (extractStridedSlice S1024x256 ![0, 0]
          (truncf .bf16 (mulf
            (matmul dot_S2048x256_S256x256_S2048x256_1_0_0_1_n_n none (truncf .bf16 x bitsLt_bf16_f32) (truncf .bf16 w bitsLt_bf16_f32)
              (constant (F := Ideal) S2048x256 .f32 0x00000000#32))
            (broadcastTo S2048x256
              (rsqrt (addf (shapeCast S2048x1 (multiReduction .add [1] S2048 a 0x00000000#32 reduces_S2048x2048_S2048 hφ hacc) shapeCasts_S2048_S2048x1)
                (broadcast S2048x1 (FloatOps.ofBits (F := Ideal) .f32 0x3727C5AC#32))))
              broadcasts_S2048x1_S2048x256)) bitsLt_bf16_f32)
          slices_S2048x256_o0_0_S1024x256)
        (constant (F := Ideal) S2048x256 .f32 0x00000000#32) (ix2 n o)
      = ∑ k : Fin 1024, term a x w n o (Fin.castAdd 1024 k) := by
  refine (matmul_half_apply _ _ n o).trans (Finset.sum_congr rfl fun k _ => ?_)
  rw [truncf_apply]
  refine congrArg₂ (· * ·) ?_ ?_
  · exact slice2_axis1_apply 0 a slices_S2048x2048_o0_0_S2048x1024 n k (Fin.castAdd 1024 k) (by show k.val = 0 + k.val; omega)
  · exact (slice2_axis0_apply 0 _ slices_S2048x256_o0_0_S1024x256 k o (Fin.castAdd 1024 k) (by show k.val = 0 + k.val; omega)).trans
      (scaledSupport_apply a x w hφ hacc (Fin.castAdd 1024 k) o)

/-- The second half (columns 1024 … 2047 against rows 1024 … 2047), at `(n, o)`. -/
theorem half1_apply (a : FVec Ideal S2048x2048 .f32) (x : FVec Ideal S2048x256 .f32) (w : FVec Ideal S256x256 .f32)
    (hφ : FKind.Formats FTy.f32) (hacc : (0x00000000#32 : BitVec 32) = FKind.add.neutral .f32 hφ) (n : Fin 2048) (o : Fin 256) :
    matmul dot_S2048x1024_S1024x256_S2048x256_1_0_0_1_n_n none
        (truncf .bf16 (extractStridedSlice S2048x1024 ![0, 1024] a slices_S2048x2048_o0_1024_S2048x1024) bitsLt_bf16_f32)
        (extractStridedSlice S1024x256 ![1024, 0]
          (truncf .bf16 (mulf
            (matmul dot_S2048x256_S256x256_S2048x256_1_0_0_1_n_n none (truncf .bf16 x bitsLt_bf16_f32) (truncf .bf16 w bitsLt_bf16_f32)
              (constant (F := Ideal) S2048x256 .f32 0x00000000#32))
            (broadcastTo S2048x256
              (rsqrt (addf (shapeCast S2048x1 (multiReduction .add [1] S2048 a 0x00000000#32 reduces_S2048x2048_S2048 hφ hacc) shapeCasts_S2048_S2048x1)
                (broadcast S2048x1 (FloatOps.ofBits (F := Ideal) .f32 0x3727C5AC#32))))
              broadcasts_S2048x1_S2048x256)) bitsLt_bf16_f32)
          slices_S2048x256_o1024_0_S1024x256)
        (constant (F := Ideal) S2048x256 .f32 0x00000000#32) (ix2 n o)
      = ∑ k : Fin 1024, term a x w n o (Fin.natAdd 1024 k) := by
  refine (matmul_half_apply _ _ n o).trans (Finset.sum_congr rfl fun k _ => ?_)
  rw [truncf_apply]
  refine congrArg₂ (· * ·) ?_ ?_
  · exact slice2_axis1_apply 1024 a slices_S2048x2048_o0_1024_S2048x1024 n k (Fin.natAdd 1024 k) (by show 1024 + k.val = 1024 + k.val; rfl)
  · exact (slice2_axis0_apply 1024 _ slices_S2048x256_o1024_0_S1024x256 k o (Fin.natAdd 1024 k) (by show 1024 + k.val = 1024 + k.val; rfl)).trans
      (scaledSupport_apply a x w hφ hacc (Fin.natAdd 1024 k) o)

/-- THE BODY'S STORED VALUE AT AN ENTRY. With `a` and `x` the adjacency and feature blocks without their unit batch
    axis, entry `(0, n, o)` of what the body stores is

      (∑ k, a (n, k) · ((∑ i, x (k, i) · w (i, o)) · d k)) · d n + bias (0, o),     d m = rsqrt ((∑ j, a (m, j)) + ε):

    the two half products, each added to a zero, are the two halves of the one sum over all 2048 columns. -/
theorem pay_apply (v0 : Vec Ideal S1x2048x2048 .f32) (v7 : Vec Ideal S1x2048x256 .f32) (v10 : Vec Ideal S256x256 .f32)
    (v29 : Vec Ideal S1x256 .f32) (n : Fin 2048) (o : Fin 256) :
    k0_pay1 (F := Ideal) v0 v7 v10 v29 (ix3 (0 : Fin 1) n o)
      = (∑ k : Fin 2048, term (shapeCast S2048x2048 v0 shapeCasts_S1x2048x2048_S2048x2048)
            (shapeCast S2048x256 v7 shapeCasts_S1x2048x256_S2048x256) v10 n o k)
          * Ideal.rsqrt ((∑ j : Fin 2048, shapeCast S2048x2048 v0 shapeCasts_S1x2048x2048_S2048x2048 (ix2 n j))
              + Ideal.ofBits .f32 0x3727C5AC#32)
        + v29 (ix2 (0 : Fin 1) o) := by
  unfold k0_pay1
  refine (shapeCast_ab_1ab_apply _ _ (0 : Fin 1) n o).trans ?_
  rw [addf_apply, mulf_apply, addf_apply, addf_apply]
  refine congrArg₂ (· + ·) (congrArg₂ (· * ·) ?_ ?_) ?_
  · -- the two halves, each on a zero, are the whole sum: read each half first (no rewriting inside the opened body),
    -- then drop the zero and join the two ranges of columns
    refine (congrArg₂ (· + ·)
      (congrArg (Ideal.ofBits .f32 0x00000000#32 + ·) (half0_apply _ _ _ _ _ n o)) (half1_apply _ _ _ _ _ n o)).trans ?_
    rw [Ideal.ofBits_zero_f32, zero_add]
    exact (Fin.sum_univ_add (fun k : Fin (1024 + 1024) =>
      term (shapeCast S2048x2048 v0 shapeCasts_S1x2048x2048_S2048x2048)
        (shapeCast S2048x256 v7 shapeCasts_S1x2048x256_S2048x256) v10 n o k)).symm
  · -- the row scale
    exact (colBroadcast_apply _ broadcasts_S2048x1_S2048x256 n o).trans (scale_apply _ _ _ n 0)
  · -- the bias row, whose cast to its own shape changes nothing
    refine (broadcastTo_1b_ab_apply _ broadcasts_S1x256_S2048x256 n o).trans ?_
    rw [shapeCast_self]

end Cert.KernelIdeal.Payload

end
-- ==== Proof.Spec.lean ====
/-
  The graph-convolution layer as one function of its four argument arrays, over the extended reals.

  For a batch `b`, a node `n` and an output channel `o`:

    deg b n      = (∑ m, A[b,n,m]) + ε                         (the row sum of the adjacency matrix, plus ε = f32(1e-5))
    support b m o = ∑ i, X[b,m,i] · W[i,o]                      (the node features times the weights)
    layer b n o   = (∑ m, A[b,n,m] · (support b m o · deg(b,m)^(-1/2))) · deg(b,n)^(-1/2) + bias[o]

  that is `D^(-1/2) A D^(-1/2) (X W) + bias` with `D` the diagonal of the shifted row sums, the column scale
  folded into the support and the row scale applied after the product. The inverse square root is the extended
  reals' `Ideal.rsqrt`. Nothing here mentions a program.
-/
import Idealize.ShloMosaic.PureOps.Ideal
import Idealize.ShloMosaic.Lib.ValueIdx

noncomputable section

namespace Cert.Spec

open Idealize.ShloMosaic Idealize.ShloMosaic.ValueIdx

/-- The shift added to every row sum: the binary32 number nearest to `1e-5`. -/
def eps : EReal := Ideal.ofBits .f32 0x3727C5AC#32

/-- Every entry of an array is a real number (neither infinity). -/
def IsReal {ι : Type} (f : ι → EReal) : Prop := ∀ i, f i ≠ ⊤ ∧ f i ≠ ⊥

/-- The shifted degree of node `n` in batch `b`: its adjacency row summed, plus `eps`. -/
def deg (A : (⟨3, ![8, 2048, 2048]⟩ : Shape).Idx → EReal) (b : Fin 8) (n : Fin 2048) : EReal :=
  (∑ m : Fin 2048, A (ix3 b n m)) + eps

/-- The support `X W`: node `m`'s features against column `o` of the weights. -/
def support (X : (⟨3, ![8, 2048, 256]⟩ : Shape).Idx → EReal) (W : (⟨2, ![256, 256]⟩ : Shape).Idx → EReal)
    (b : Fin 8) (m : Fin 2048) (o : Fin 256) : EReal :=
  ∑ i : Fin 256, X (ix3 b m i) * W (ix2 i o)

/-- One entry of the layer's output. -/
def layerAt (X : (⟨3, ![8, 2048, 256]⟩ : Shape).Idx → EReal) (A : (⟨3, ![8, 2048, 2048]⟩ : Shape).Idx → EReal)
    (W : (⟨2, ![256, 256]⟩ : Shape).Idx → EReal) (Bv : (⟨1, ![256]⟩ : Shape).Idx → EReal)
    (b : Fin 8) (n : Fin 2048) (o : Fin 256) : EReal :=
  (∑ m : Fin 2048, A (ix3 b n m) * (support X W b m o * Ideal.rsqrt (deg A b m))) * Ideal.rsqrt (deg A b n) + Bv (ix1 o)

/-- The layer's output array. -/
def layer (X : (⟨3, ![8, 2048, 256]⟩ : Shape).Idx → EReal) (A : (⟨3, ![8, 2048, 2048]⟩ : Shape).Idx → EReal)
    (W : (⟨2, ![256, 256]⟩ : Shape).Idx → EReal) (Bv : (⟨1, ![256]⟩ : Shape).Idx → EReal) :
    (⟨3, ![8, 2048, 256]⟩ : Shape).Idx → EReal :=
  fun j => layerAt X A W Bv (j 0) (j 1) (j 2)

theorem layer_ix3 (X : (⟨3, ![8, 2048, 256]⟩ : Shape).Idx → EReal) (A : (⟨3, ![8, 2048, 2048]⟩ : Shape).Idx → EReal)
    (W : (⟨2, ![256, 256]⟩ : Shape).Idx → EReal) (Bv : (⟨1, ![256]⟩ : Shape).Idx → EReal)
    (b : Fin 8) (n : Fin 2048) (o : Fin 256) :
    layer X A W Bv (ix3 b n o) = layerAt X A W Bv b n o := rfl

end Cert.Spec

end
-- ==== Proof.KernelValue.lean ====
/-
  From the kernel's blocks to its output array.

  The grid has eight points, one per batch. At point `t` the pipeline hands the body batch `t`'s adjacency block
  (2048 × 2048) and feature block (2048 × 256), the whole weight matrix and the bias row, and writes back batch
  `t`'s block of the output. The body's stored value, entry by entry, is the layer of Proof/Spec.lean at `(t, n, o)`
  of the arrays the region finds; the eight output blocks are the eight batches, so together they are the whole
  output array, and the array after the run is the layer of the argument arrays.
-/
import proofs.«109411_j46084999086083_2_alg».proof.Proof.Gen.KernelIdeal.Value
import proofs.«109411_j46084999086083_2_alg».proof.Proof.KernelPayload
import proofs.«109411_j46084999086083_2_alg».proof.Proof.Spec
import Idealize.ShloMosaic.Lib.StableHlo.Run
import Idealize.ShloMosaic.Lib.ValueLayout

noncomputable section

namespace Cert.KernelIdeal.KValue

open Cert.KernelIdeal Cert.KernelIdeal.Gen Idealize.ShloMosaic Idealize.ShloMosaic.TcCoe Idealize.SL.Sem Idealize.ShloMosaic.ValueIdx
open Idealize.ShloMosaic.Pipeline (Dat)
open Idealize.ShloMosaic.StableHlo

/-- The printed index maps over the eight grid points: the adjacency, feature and output windows take block `t` along
    the batch axis and block 0 along the others; the weight and bias windows always take block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- The batch a grid point works on. -/
def batch (t : Fin cfg0.N) : Fin 8 := ⟨t.val, by have h : t.val < grid0.N := t.isLt; rw [N_0] at h; exact h⟩

variable {F : FTy → Type} [FloatOps F]
variable (m : (ℓ : Loc nD τ sig) → Buf (Elt F) ℓ)

/-! ## Each input block, read at an entry: an entry of a block sits at block index × block size + its coordinate -/

/-- The adjacency block at point `t`, at row `n` and column `k`, is the adjacency array at `(t, n, k)`. -/
theorem adj_blk (c : Dev nD) (t : Fin cfg0.N) (n k : Fin 2048) :
    iblk m c 0 t (ix3 (0 : Fin 1) n k) = V m c main_arg1 (ix3 (batch t) n k) := by
  obtain ⟨e00, e01, e02, -⟩ := idx_facts t
  show V m c main_arg1 (((cfg0.win 0).blk t).view.emb (ix3 (0 : Fin 1) n k)) = V m c main_arg1 (ix3 (batch t) n k)
  refine congrArg (V m c main_arg1) (funext fun a => Fin.ext ?_)
  match a with
  | ⟨0, _⟩ => show win0_0.index t (0 : Fin 3) * 1 + 1 * 0 = t.val; omega
  | ⟨1, _⟩ => show win0_0.index t (1 : Fin 3) * 2048 + 1 * n.val = n.val; omega
  | ⟨2, _⟩ => show win0_0.index t (2 : Fin 3) * 2048 + 1 * k.val = k.val; omega

/-- The feature block at point `t`, at row `n` and column `i`, is the feature array at `(t, n, i)`. -/
theorem feat_blk (c : Dev nD) (t : Fin cfg0.N) (n : Fin 2048) (i : Fin 256) :
    iblk m c 1 t (ix3 (0 : Fin 1) n i) = V m c main_arg0 (ix3 (batch t) n i) := by
  obtain ⟨-, -, -, e10, e11, e12, -⟩ := idx_facts t
  show V m c main_arg0 (((cfg0.win 1).blk t).view.emb (ix3 (0 : Fin 1) n i)) = V m c main_arg0 (ix3 (batch t) n i)
  refine congrArg (V m c main_arg0) (funext fun a => Fin.ext ?_)
  match a with
  | ⟨0, _⟩ => show win0_1.index t (0 : Fin 3) * 1 + 1 * 0 = t.val; omega
  | ⟨1, _⟩ => show win0_1.index t (1 : Fin 3) * 2048 + 1 * n.val = n.val; omega
  | ⟨2, _⟩ => show win0_1.index t (2 : Fin 3) * 256 + 1 * i.val = i.val; omega

/-- The weight block at any point is the whole weight matrix. -/
theorem weight_blk (c : Dev nD) (t : Fin cfg0.N) (i o : Fin 256) :
    iblk m c 2 t (ix2 i o) = V m c main_arg2 (ix2 i o) := by
  obtain ⟨-, -, -, -, -, -, e20, e21, -⟩ := idx_facts t
  show V m c main_arg2 (((cfg0.win 2).blk t).view.emb (ix2 i o)) = V m c main_arg2 (ix2 i o)
  refine congrArg (V m c main_arg2) (funext fun a => Fin.ext ?_)
  match a with
  | ⟨0, _⟩ => show win0_2.index t (0 : Fin 2) * 256 + 1 * i.val = i.val; omega
  | ⟨1, _⟩ => show win0_2.index t (1 : Fin 2) * 256 + 1 * o.val = o.val; omega

/-- The bias block at any point is the whole bias row as the region finds it. -/
theorem bias_blk (c : Dev nD) (t : Fin cfg0.N) (o : Fin 256) :
    iblk m c 3 t (ix2 (0 : Fin 1) o) = V m c main_v0 (ix2 (0 : Fin 1) o) := by
  obtain ⟨-, -, -, -, -, -, -, -, e30, e31, -⟩ := idx_facts t
  show V m c main_v0 (((cfg0.win 3).blk t).view.emb (ix2 (0 : Fin 1) o)) = V m c main_v0 (ix2 (0 : Fin 1) o)
  refine congrArg (V m c main_v0) (funext fun a => Fin.ext ?_)
  match a with
  | ⟨0, _⟩ => show win0_3.index t (0 : Fin 2) * 1 + 1 * 0 = 0; omega
  | ⟨1, _⟩ => show win0_3.index t (1 : Fin 2) * 256 + 1 * o.val = o.val; omega

/-! ## The bias row, and the blocks with their unit batch axis dropped -/

/-- The bias row as the region finds it: the one host operation before the region casts the bias vector to one row. -/
theorem V_bias_row (c : Dev nD) :
    (V m c main_v0 : S1x256.Idx → Elt F .f32) = shapeCast S1x256 (m ((c : Thread nD τ).loc main_arg3)) shapeCasts_S256_S1x256 := by
  dsimp only [Gen.V, Gen.hostOps0]
  after_results
  rfl

/-- So the bias block at `(0, o)` is the bias vector at `o`. -/
theorem bias_at (c : Dev nD) (t : Fin cfg0.N) (o : Fin 256) :
    iblk m c 3 t (ix2 (0 : Fin 1) o) = m ((c : Thread nD τ).loc main_arg3) (ix1 o) := by
  rw [bias_blk, V_bias_row]
  exact shapeCast_a_1a_apply _ shapeCasts_S256_S1x256 (0 : Fin 1) o

/-- The adjacency block without its batch axis, at `(n, k)`: the adjacency array at `(t, n, k)`. -/
theorem adj_at (c : Dev nD) (t : Fin cfg0.N) (n k : Fin 2048) :
    shapeCast S2048x2048 (iblk m c 0 t) shapeCasts_S1x2048x2048_S2048x2048 (ix2 n k) = V m c main_arg1 (ix3 (batch t) n k) :=
  (shapeCast_1ab_ab_apply _ shapeCasts_S1x2048x2048_S2048x2048 n k).trans (adj_blk m c t n k)

/-- The feature block without its batch axis, at `(n, i)`: the feature array at `(t, n, i)`. -/
theorem feat_at (c : Dev nD) (t : Fin cfg0.N) (n : Fin 2048) (i : Fin 256) :
    shapeCast S2048x256 (iblk m c 1 t) shapeCasts_S1x2048x256_S2048x256 (ix2 n i) = V m c main_arg0 (ix3 (batch t) n i) :=
  (shapeCast_1ab_ab_apply _ shapeCasts_S1x2048x256_S2048x256 n i).trans (feat_blk m c t n i)

/-- Entry `(0, n, o)` of the output block at point `t` sits at `(t, n, o)` of the output array. -/
theorem out_emb (t : Fin cfg0.N) (n : Fin 2048) (o : Fin 256) :
    ((cfg0.win 4).blk t).view.emb (ix3 (0 : Fin 1) n o) = ix3 (batch t) n o := by
  obtain ⟨-, -, -, -, -, -, -, -, -, -, e40, e41, e42⟩ := idx_facts t
  refine funext fun a => Fin.ext ?_
  match a with
  | ⟨0, _⟩ => show win0_4.index t (0 : Fin 3) * 1 + 1 * 0 = t.val; omega
  | ⟨1, _⟩ => show win0_4.index t (1 : Fin 3) * 2048 + 1 * n.val = n.val; omega
  | ⟨2, _⟩ => show win0_4.index t (2 : Fin 3) * 256 + 1 * o.val = o.val; omega

/-! ## What each point writes back -/

section AtIdeal

variable (mI : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The layer of the arrays the region finds (the bias as the vector the one host operation casts to a row). -/
abbrev found (c : Dev nD) : S8x2048x256.Idx → EReal :=
  Cert.Spec.layer (V mI c main_arg0) (V mI c main_arg1) (V mI c main_arg2) (mI ((c : Thread nD τ).loc main_arg3))

/-- THE BODY'S STORED VALUE at point `t`, entry `(0, n, o)`, is the layer at `(t, n, o)`: the adjacency and feature
    blocks are batch `t` of their arrays, the weight and bias blocks the whole of theirs, and the body's arithmetic is
    the layer's, summand by summand. -/
theorem body_entry (c : Dev nD) (t : Fin cfg0.N) (n : Fin 2048) (o : Fin 256) :
    k0_pay1 (F := Ideal) (iblk mI c 0 t) (iblk mI c 1 t) (iblk mI c 2 t) (iblk mI c 3 t) (ix3 (0 : Fin 1) n o)
      = Cert.Spec.layerAt (V mI c main_arg0) (V mI c main_arg1) (V mI c main_arg2) (mI ((c : Thread nD τ).loc main_arg3)) (batch t) n o := by
  refine (Payload.pay_apply (iblk mI c 0 t) (iblk mI c 1 t) (iblk mI c 2 t) (iblk mI c 3 t) n o).trans ?_
  unfold Cert.Spec.layerAt
  refine congrArg₂ (· + ·) (congrArg₂ (· * ·) (Finset.sum_congr rfl fun k _ => ?_) ?_) (bias_at mI c t o)
  · -- one summand: the adjacency entry times the scaled support entry
    unfold Payload.term Cert.Spec.support Cert.Spec.deg Cert.Spec.eps
    refine congrArg₂ (· * ·) (adj_at mI c t n k) (congrArg₂ (· * ·) (Finset.sum_congr rfl fun i _ => ?_) ?_)
    · exact congrArg₂ (· * ·) (feat_at mI c t k i) (weight_blk mI c t i o)
    · exact congrArg (fun s => Ideal.rsqrt (s + Ideal.ofBits .f32 0x3727C5AC#32)) (Finset.sum_congr rfl fun j _ => adj_at mI c t k j)
  · -- the row's own scale
    unfold Cert.Spec.deg Cert.Spec.eps
    exact congrArg (fun s => Ideal.rsqrt (s + Ideal.ofBits .f32 0x3727C5AC#32)) (Finset.sum_congr rfl fun j _ => adj_at mI c t n j)

/-- WHAT POINT `t` WRITES BACK is block `t` of the layer of the arrays the region finds. -/
theorem flushed_eq (c : Dev nD) (t : Fin cfg0.N) :
    (dats mI 0 c).flushed 4 t = ((cfg0.win 4).blk t).view.read (Elt Ideal) (found mI c) := by
  rw [Cert.KernelIdeal.Value.flushed4]
  unfold out0_4
  rw [View.canon_unit_zero hz3]
  simp only [View.ld_unit_zero (S := S1x2048x2048) hz3, View.ld_unit_zero (S := S1x2048x256) hz3,
    View.ld_unit_zero (S := S256x256) hz2, View.ld_unit_zero (S := S1x256) hz2]
  funext y
  obtain ⟨u, n, o, rfl⟩ : ∃ (u : Fin 1) (n : Fin 2048) (o : Fin 256), y = ix3 u n o := ⟨y 0, y 1, y 2, eq_ix3 y⟩
  have hu : u = 0 := Fin.ext (by omega)
  subst hu
  show k0_pay1 (iblk mI c 0 t) (iblk mI c 1 t) (iblk mI c 2 t) (iblk mI c 3 t) (ix3 (0 : Fin 1) n o)
      = found mI c (((cfg0.win 4).blk t).view.emb (ix3 (0 : Fin 1) n o))
  rw [out_emb t n o]
  exact body_entry mI c t n o

/-! ## The eight blocks are the whole array -/

/-- An index of the output array is in point `t`'s block iff each coordinate is in the block's range on its axis. -/
theorem mem_blk (t : Fin cfg0.N) (i : S8x2048x256.Idx) :
    i ∈ ((cfg0.win 4).blk t).view.set ↔ ∀ a : Fin 3, win0_4.index t a * S1x2048x256.size a ≤ (i a).val ∧ (i a).val < win0_4.index t a * S1x2048x256.size a + S1x2048x256.size a := by
  show i ∈ ((View.whole main_v1).slice (win0_4.rect t)).set ↔ _
  rw [View.set_slice_whole, Rect.mem_set_unit]
  exact Iff.rfl

/-- Every index `(b, n, o)` of the output array is in the block of the point numbered `b`, and every point writes back. -/
theorem covered (i : S8x2048x256.Idx) : ∃ t : Fin cfg0.N, (cfg0.win 4).flush t = true ∧ i ∈ ((cfg0.win 4).blk t).view.set := by
  have hi0 : (i 0).val < 8 := (i 0).isLt
  have hi1 : (i 1).val < 2048 := (i 1).isLt
  have hi2 : (i 2).val < 256 := (i 2).isLt
  let t : Fin cfg0.N := ⟨(i 0).val, by show (i 0).val < grid0.N; rw [N_0]; exact hi0⟩
  obtain ⟨-, -, -, -, -, -, -, -, -, -, e40, e41, e42⟩ := idx_facts t
  have ht : t.val = (i 0).val := rfl
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 2048 ≤ (i 1).val ∧ (i 1).val < win0_4.index t (1 : Fin 3) * 2048 + 2048; omega
  | ⟨2, _⟩ => show win0_4.index t (2 : Fin 3) * 256 ≤ (i 2).val ∧ (i 2).val < win0_4.index t (2 : Fin 3) * 256 + 256; omega

/-- THE OUTPUT ARRAY after the run is the layer of the arrays the region finds. -/
theorem final (c : Dev nD) : (dats mI 0 c).arrAt 4 cfg0.N = found mI c :=
  (dats mI 0 c).arrAt_eq_of_cover 4 (found mI c) (fun t _ => flushed_eq mI c t) covered

/-- The arrays the region finds are the arguments as launched, so the layer of the one is the layer of the other. -/
theorem found_eq (c : Dev nD) :
    found mI c = Cert.Spec.layer (mI ((c : Thread nD τ).loc main_arg0)) (mI ((c : Thread nD τ).loc main_arg1))
      (mI ((c : Thread nD τ).loc main_arg2)) (mI ((c : Thread nD τ).loc main_arg3)) := by
  unfold found
  rw [V_main_arg0, V_main_arg1, V_main_arg2]

/-! ## The run, read -/

/-- Every weakly fair execution of the kernel's program terminates with the output array at the layer of the
    argument arrays, the arguments unchanged. -/
theorem run : θ_run defs (onTc (τ := τ) (main (F := Ideal))) ⟨mI, fun _ => 0, ρ⟩ fun r => ∀ c : Dev nD,
      r.2.mem ((c : Thread nD τ).loc main_v1) = Cert.Spec.layer (mI ((c : Thread nD τ).loc main_arg0)) (mI ((c : Thread nD τ).loc main_arg1))
          (mI ((c : Thread nD τ).loc main_arg2)) (mI ((c : Thread nD τ).loc main_arg3))
      ∧ r.2.mem ((c : Thread nD τ).loc main_arg0) = mI ((c : Thread nD τ).loc main_arg0)
      ∧ r.2.mem ((c : Thread nD τ).loc main_arg1) = mI ((c : Thread nD τ).loc main_arg1)
      ∧ r.2.mem ((c : Thread nD τ).loc main_arg2) = mI ((c : Thread nD τ).loc main_arg2)
      ∧ r.2.mem ((c : Thread nD τ).loc main_arg3) = mI ((c : Thread nD τ).loc main_arg3) :=
  (θ_run defs _ _).mono (fun r h c => ⟨((h c).1.trans (final mI c)).trans (found_eq mI c), (h c).2⟩)
    (Cert.KernelIdeal.Value.run_blocks mI ρ)

end AtIdeal

end Cert.KernelIdeal.KValue

end
-- ==== Proof.PreFacts.lean ====
/-
  What the precondition says about the argument arrays.

  The precondition is the conjunction of five "for all entries" statements. Four of them say, of one argument array
  each, that every entry x satisfies |x| < +∞; over the extended reals |x| = max x (-x), and max x (-x) < ⊤ holds
  exactly when x is neither ⊤ nor ⊥, that is, when x is a real number. The fifth says that every row sum of the
  adjacency array, shifted by ε, is positive: (0 + ∑ₘ A[b,n,m]) + ε > 0, which is 0 < deg b n.
-/
import proofs.«109411_j46084999086083_2_alg».proof.Pre_finite_inputs
import proofs.«109411_j46084999086083_2_alg».proof.Proof.Gen.Pre_finite_inputs
import proofs.«109411_j46084999086083_2_alg».proof.Proof.Spec
import Idealize.ShloMosaic.Lib.ReduceAll
import Idealize.ShloMosaic.PureOps.Ideal.Laws
import Idealize.ShloMosaic.Lib.ValueIdx
import Idealize.ShloMosaic.Lib.IdealHost

noncomputable section

namespace Cert.PreFacts

open Idealize.ShloMosaic Idealize.ShloMosaic.ValueIdx Cert.Pre_finite_inputs

/-- The scalar shape has exactly one index. -/
instance : Subsingleton S_.Idx := ⟨fun a b => funext fun d => d.elim0⟩

/-- The binary32 pattern with all exponent bits set and no fraction bits is +∞. -/
theorem ofBits_inf_f32 : Ideal.ofBits .f32 0x7F800000#32 = ⊤ := by simp [Ideal.ofBits, Ideal.ieee]

/-- An extended real whose absolute value max x (-x) is below +∞ is a real number: at x = ⊤ the maximum is ⊤, and at
    x = ⊥ it is -⊥ = ⊤. -/
theorem real_of_abs_lt_top (x : EReal) (h : max x (-x) < ⊤) : x ≠ ⊤ ∧ x ≠ ⊥ := by
  constructor
  · rintro rfl; simp at h
  · rintro rfl; simp at h

/-- The comparison word of "x < y" is 1 only when x < y. -/
theorem lt_of_cmp_olt {x y : EReal} (h : Ideal.cmp .olt x y = 1#1) : x < y := by
  by_contra hn
  simp [Ideal.cmp, hn] at h

/-- The comparison word of "x > y" is 1 only when y < x. -/
theorem lt_of_cmp_ogt {x y : EReal} (h : Ideal.cmp .ogt x y = 1#1) : y < x := by
  by_contra hn
  simp [Ideal.cmp, hn] at h

/-- One "every entry is finite" conjunct, for an array of any shape: if the conjunction over all entries of the words
    of "|x i| < +∞" is 1, then every entry of x is a real number. Each entry's word is 1, so max (x i) (-(x i)) < ⊤. -/
theorem isReal_of_all {s : Shape} {axes : List (Fin s.rank)} (x : FVec Ideal s .f32)
    (hb : S_.BroadcastsInDim s (![] : Fin 0 → Fin s.rank)) (hr : s.ReducesTo axes S_) (hu : 0 < S_.numel) (c : IVec S_ 1)
    (e : Host.reduce IntOp.andi
          (cmpf .olt (Host.absf x) (broadcastInDim s ![] hb (constant (F := Ideal) S_ .f32 0x7F800000#32))) c hr hu ix0 = 1#1) :
    Cert.Spec.IsReal x := by
  intro i
  -- the entry's own comparison word is 1
  have h1 := Host.reduce_andi_all _ _ hr hu ix0 e i
  rw [cmpf_apply, broadcastInDim_scalar_apply, Ideal.cmpf_def] at h1
  -- so |x i| is below the value of the pattern 0x7F800000, which is ⊤
  have h2 : max (x i) (-(x i)) < Ideal.ofBits .f32 0x7F800000#32 := lt_of_cmp_olt h1
  rw [ofBits_inf_f32] at h2
  exact real_of_abs_lt_top (x i) h2

/-- The fifth conjunct: if the conjunction over all rows (b, n) of the words of "(0 + ∑ₘ A[b,n,m]) + ε > 0" is 1, then
    every shifted degree is positive. The row's word is 1; the sum over the last axis read at row (b, n) runs over the
    indices (b, n, m); the leading 0 is the sum's initial value and drops out. -/
theorem deg_pos_of_all (A : FVec Ideal S8x2048x2048 .f32)
    (hr2 : S8x2048x2048.ReducesTo [2] S8x2048) (hb : S_.BroadcastsInDim S8x2048 (![] : Fin 0 → Fin S8x2048.rank))
    (hr : S8x2048.ReducesTo [0, 1] S_) (hu : 0 < S_.numel) (c : IVec S_ 1)
    (e : Host.reduce IntOp.andi
          (cmpf .ogt
            (addf (Host.reduceAdd A (constant (F := Ideal) S_ .f32 0x00000000#32) hr2 hu)
              (broadcastInDim S8x2048 ![] hb (constant (F := Ideal) S_ .f32 0x3727C5AC#32)))
            (broadcastInDim S8x2048 ![] hb (constant (F := Ideal) S_ .f32 0x00000000#32))) c hr hu ix0 = 1#1)
    (b : Fin 8) (n : Fin 2048) : 0 < Cert.Spec.deg A b n := by
  -- the word of row (b, n) is 1
  have h1 := Host.reduce_andi_all _ _ hr hu ix0 e (ix2 b n)
  rw [cmpf_apply, addf_apply, broadcastInDim_scalar_apply, broadcastInDim_scalar_apply, Ideal.cmpf_def,
    hostReduceAdd_apply] at h1
  have h2 := lt_of_cmp_ogt h1
  -- the constants are 0 and ε; the sum over the last axis at row (b, n) is 0 + ∑ₖ A at the index with k inserted
  rw [constant_apply, constant_apply, constant_apply, Ideal.ofBits_zero_f32,
    Ideal.hostReduceAdd_single hr2 (by decide), zero_add] at h2
  -- the index with k inserted on the last axis of (b, n) is (b, n, k)
  have hidx : ∀ k : Fin 2048, (by decide : S8x2048x2048.Reduces [2] S8x2048).lift (ix2 b n) k = ix3 b n k := fun k =>
    funext fun a => Fin.ext (by match a with | ⟨0, _⟩ => rfl | ⟨1, _⟩ => rfl | ⟨2, _⟩ => rfl)
  have hsum : (∑ k : Fin (S8x2048x2048.size 2), A ((by decide : S8x2048x2048.Reduces [2] S8x2048).lift (ix2 b n) k))
      = ∑ m : Fin 2048, A (ix3 b n m) := Finset.sum_congr rfl fun k _ => congrArg A (hidx k)
  rw [hsum] at h2
  -- which is the shifted degree, by its definition
  exact h2

variable [Cert.Pre_finite_inputs.Facts]

/-- What the precondition gives: if its one word is 1, then the feature array X, the adjacency array A and the weight
    array W have only real entries, and every shifted degree (∑ₘ A[b,n,m]) + ε is positive. The word is the conjunction
    of five words, one per "for all entries" statement, so each of the five is 1. (The statement about the bias array
    is the fourth; nothing is asked of it here.) -/
theorem of_pre (X : FVec Ideal Cert.Pre_finite_inputs.S8x2048x256 .f32) (A : FVec Ideal Cert.Pre_finite_inputs.S8x2048x2048 .f32)
    (W : FVec Ideal Cert.Pre_finite_inputs.S256x256 .f32) (Bv : FVec Ideal Cert.Pre_finite_inputs.S256 .f32)
    (h : Cert.Pre_finite_inputs.fn (F := Ideal) X A W Bv = fun _ => 1#1) :
    Cert.Spec.IsReal X ∧ Cert.Spec.IsReal A ∧ Cert.Spec.IsReal W ∧ ∀ (b : Fin 8) (n : Fin 2048), 0 < Cert.Spec.deg A b n := by
  -- the predicate's one word, with its operations in view
  have h0 := congrFun h ix0
  dsimp only [Cert.Pre_finite_inputs.fn, Cert.Pre_finite_inputs.fn_part1, andi] at h0
  -- a conjunction of words is 1 exactly when each word is 1
  obtain ⟨h1234, h5⟩ := IntOp.andi_eq_one.1 h0
  obtain ⟨h123, _⟩ := IntOp.andi_eq_one.1 h1234
  obtain ⟨h12, h3⟩ := IntOp.andi_eq_one.1 h123
  obtain ⟨h1, h2⟩ := IntOp.andi_eq_one.1 h12
  exact ⟨isReal_of_all X _ _ _ _ h1, isReal_of_all A _ _ _ _ h2, isReal_of_all W _ _ _ _ h3,
    deg_pos_of_all A _ _ _ _ _ h5⟩

end Cert.PreFacts

end
-- ==== Proof.RefValue.lean ====
/-
  The reference program's result is the graph-convolution layer of Proof/Spec.lean, over the extended reals, when
  every entry of X, A and W is a real number and every shifted degree is positive.

  Read at a batch b, a node n and an output channel o, the reference's result is

      ∑ m, ((p n · A[b,n,m]) · p m) · (∑ i, X[b,m,i] · W[i,o])  +  bias[o],     p n = ((0 + ∑ k, A[b,n,k]) + ε) ^ c,

  where c is the number the pattern 0xBF000000 denotes and ε is the specification's shift. The specification is

      (∑ m, A[b,n,m] · (support b m o · rsqrt (deg b m))) · rsqrt (deg b n)  +  bias[o].

  Three facts join the two.
   1. c = -1/2, and at a real r > 0 both r ^ (-1/2) and rsqrt r are the real number (√r)⁻¹. (At r ≤ 0 the power and
      the inverse square root follow different conventions, which is why positivity of the degrees is assumed.)
   2. ε is a real number, so with real entries each shifted degree deg b n = (∑ k, A[b,n,k]) + ε is a real number,
      and so is each support entry, a finite sum of products of reals.
   3. Hence both sides, up to the common summand bias[o], are coercions of real expressions, and over the reals
      ∑ m, ((q · a m) · p m) · s m = (∑ m, a m · (s m · p m)) · q by distributing the factor q over the sum and
      reordering each term's factors.
  The bias is added on both sides and needs no finiteness.
-/
import proofs.«109411_j46084999086083_2_alg».proof.Proof.Gen.ReferenceIdeal.Read
import proofs.«109411_j46084999086083_2_alg».proof.Proof.Spec

noncomputable section

namespace Cert.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## Extended reals and reals -/

/-- The coercion of a finite real sum is the sum of the coercions. -/
theorem coe_sum {ι : Type} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- The pattern 0xBF000000 denotes the real number -1/2. -/
theorem ofBits_neg_half : Ideal.ofBits .f32 0xBF000000#32 = ((-(1 / 2) : ℝ) : EReal) := by
  simp [Ideal.ofBits, Ideal.ieee, -EReal.coe_mul]; norm_num

/-- The shift is a real number. -/
theorem eps_real : ∃ r : ℝ, Cert.Spec.eps = (r : EReal) := by
  unfold Cert.Spec.eps
  simp [Ideal.ofBits, Ideal.ieee, -EReal.coe_mul]

/-- At a positive real the power -1/2 is the inverse square root. -/
theorem pow_neg_half_eq_rsqrt (r : ℝ) (hr : 0 < r) :
    Ideal.pow (r : EReal) ((-(1 / 2) : ℝ) : EReal) = Ideal.rsqrt (r : EReal) := by
  rw [Ideal.pow_coe_coe, Ideal.rsqrt_coe, if_neg (not_lt.mpr hr.le), if_neg hr.ne']
  refine congrArg (fun x : ℝ => (x : EReal)) ?_
  show r ^ (-(1 / 2) : ℝ) = (Real.sqrt r)⁻¹
  -- r ^ (-(1/2)) = (r ^ (1/2))⁻¹, and √r is r ^ (1/2).
  rw [Real.rpow_neg hr.le, Real.sqrt_eq_rpow]

/-- Over the reals: a factor q inside every term of a sum comes out of the sum, and each term's remaining factors
    reorder. -/
theorem scaled_sum_eq {ι : Type} [Fintype ι] (a s p : ι → ℝ) (q : ℝ) :
    ∑ m, ((q * a m) * p m) * s m = (∑ m, a m * (s m * p m)) * q := by
  -- (∑ m, t m) · q = ∑ m, t m · q; then term by term both sides are the product of q, a m, p m and s m.
  rw [Finset.sum_mul]
  exact Finset.sum_congr rfl fun m _ => by ring

/-! ## The reference, read at an index -/

/-- The reference's scale of node n in batch b: the shifted degree to the power the pattern 0xBF000000 denotes. -/
theorem v4_read (A : (⟨S8x2048x2048, .f32⟩ : BufTy).Contents (Elt Ideal)) (b : Fin 8) (n : Fin 2048) :
    val_main_v4 (F := Ideal) A (ix2 b n)
      = Ideal.pow (Cert.Spec.deg A b n) (Ideal.ofBits .f32 0xBF000000#32) := by
  rw [val_main_v4_apply, val_main_v2_apply, val_main_v0_apply, val_main_v1_apply, val_main_v3_apply,
    val_main_cst_apply, val_main_cst_0_apply, val_main_cst_1_apply]
  -- ((0 + ∑ k, A[b,n,k]) + ε) ^ c: the initial value of the row sum denotes 0 and drops out.
  rw [Ideal.hostPowf_def, Ideal.addf_def, Ideal.ofBits_def, Ideal.ofBits_def, Ideal.ofBits_def,
    Ideal.ofBits_zero_f32, zero_add]
  -- the k-th summand of row (b, n) is the entry at (b, n, k)
  have hi : ∀ k : Fin 2048, idx_main_v0 (ix2 b n) k = ix3 b n k := fun k =>
    funext fun a => Fin.ext (by match a with | ⟨0, _⟩ => rfl | ⟨1, _⟩ => rfl | ⟨2, _⟩ => rfl)
  simp only [hi]
  rfl

/-- The scaled adjacency entry: the row's scale times the entry, times the column's scale. -/
theorem v10_read (A : (⟨S8x2048x2048, .f32⟩ : BufTy).Contents (Elt Ideal)) (b : Fin 8) (n m : Fin 2048) :
    val_main_v10 (F := Ideal) A (ix3 b n m)
      = (val_main_v4 (F := Ideal) A (ix2 b n) * A (ix3 b n m)) * val_main_v4 (F := Ideal) A (ix2 b m) := by
  rw [val_main_v10_apply, val_main_v7_apply, val_main_v6_apply, val_main_v5_apply, val_main_v9_apply,
    val_main_v8_apply, Ideal.mulf_def, Ideal.mulf_def]
  -- the scale broadcast along the columns is read at (b, n); the one broadcast along the rows at (b, m)
  have hr : idx_main_v5 (idx_main_v6 (ix3 b n m)) = ix2 b n :=
    funext fun a => Fin.ext (by match a with | ⟨0, _⟩ => rfl | ⟨1, _⟩ => rfl)
  have hc : idx_main_v8 (idx_main_v9 (ix3 b n m)) = ix2 b m :=
    funext fun a => Fin.ext (by match a with | ⟨0, _⟩ => rfl | ⟨1, _⟩ => rfl)
  rw [hr, hc]

/-- The reference's first product is the support. -/
theorem v11_read (X : (⟨S8x2048x256, .f32⟩ : BufTy).Contents (Elt Ideal))
    (W : (⟨S256x256, .f32⟩ : BufTy).Contents (Elt Ideal)) (b : Fin 8) (m : Fin 2048) (o : Fin 256) :
    val_main_v11 (F := Ideal) X W (ix3 b m o) = Cert.Spec.support X W b m o := by
  rw [val_main_v11_apply]
  unfold Cert.Spec.support
  refine Finset.sum_congr rfl fun k _ => ?_
  have hl : lidx_main_v11 (ix3 b m o) k = ix3 b m k :=
    funext fun a => Fin.ext (by match a with | ⟨0, _⟩ => rfl | ⟨1, _⟩ => rfl | ⟨2, _⟩ => rfl)
  have hr : ridx_main_v11 (ix3 b m o) k = ix2 k o :=
    funext fun a => Fin.ext (by match a with | ⟨0, _⟩ => rfl | ⟨1, _⟩ => rfl)
  rw [hl, hr]

/-- The broadcast bias at (b, n, o) is the bias at o. -/
theorem v14_read (Bv : (⟨S256, .f32⟩ : BufTy).Contents (Elt Ideal)) (b : Fin 8) (n : Fin 2048) (o : Fin 256) :
    val_main_v14 (F := Ideal) Bv (ix3 b n o) = Bv (ix1 o) := by
  rw [val_main_v14_apply, val_main_v13_apply]
  exact congrArg Bv (funext fun a => Fin.ext (by match a with | ⟨0, _⟩ => rfl))

/-- The reference's result at (b, n, o), in the specification's own terms. -/
theorem v15_read (X : (⟨S8x2048x256, .f32⟩ : BufTy).Contents (Elt Ideal))
    (A : (⟨S8x2048x2048, .f32⟩ : BufTy).Contents (Elt Ideal))
    (W : (⟨S256x256, .f32⟩ : BufTy).Contents (Elt Ideal)) (Bv : (⟨S256, .f32⟩ : BufTy).Contents (Elt Ideal))
    (b : Fin 8) (n : Fin 2048) (o : Fin 256) :
    val_main_v15 (F := Ideal) X A W Bv (ix3 b n o)
      = (∑ m : Fin 2048,
          ((Ideal.pow (Cert.Spec.deg A b n) (Ideal.ofBits .f32 0xBF000000#32) * A (ix3 b n m))
            * Ideal.pow (Cert.Spec.deg A b m) (Ideal.ofBits .f32 0xBF000000#32))
          * Cert.Spec.support X W b m o)
        + Bv (ix1 o) := by
  -- the second product contracts the column m of the scaled adjacency with the row m of the support
  rw [val_main_v15_apply, val_main_v12_apply, v14_read, Ideal.addf_def]
  refine congrArg (· + Bv (ix1 o)) (Finset.sum_congr rfl fun m _ => ?_)
  have hl : lidx_main_v12 (ix3 b n o) m = ix3 b n m :=
    funext fun a => Fin.ext (by match a with | ⟨0, _⟩ => rfl | ⟨1, _⟩ => rfl | ⟨2, _⟩ => rfl)
  have hr : ridx_main_v12 (ix3 b n o) m = ix3 b m o :=
    funext fun a => Fin.ext (by match a with | ⟨0, _⟩ => rfl | ⟨1, _⟩ => rfl | ⟨2, _⟩ => rfl)
  rw [hl, hr, v10_read, v11_read, v4_read, v4_read]

/-! ## Real entries -/

/-- An array whose entries are all real is the coercion of a real-valued array. -/
theorem exists_real {ι : Type} (f : ι → EReal) (hf : Cert.Spec.IsReal f) :
    ∃ g : ι → ℝ, ∀ i, f i = (g i : EReal) :=
  ⟨fun i => (f i).toReal, fun i => (EReal.coe_toReal (hf i).1 (hf i).2).symm⟩

/-- With real entries the shifted degree is a real number: a finite sum of reals plus the real shift. -/
theorem deg_real (A : (⟨S8x2048x2048, .f32⟩ : BufTy).Contents (Elt Ideal)) (hA : Cert.Spec.IsReal A)
    (b : Fin 8) (n : Fin 2048) : ∃ r : ℝ, Cert.Spec.deg A b n = (r : EReal) := by
  obtain ⟨a, ha⟩ := exists_real A hA
  obtain ⟨e, he⟩ := eps_real
  refine ⟨(∑ m : Fin 2048, a (ix3 b n m)) + e, ?_⟩
  unfold Cert.Spec.deg
  rw [EReal.coe_add, coe_sum, he]
  simp only [ha]

/-- At a positive real shifted degree the reference's scale (the power -1/2) and the specification's (the inverse
    square root) are one real number. -/
theorem scale_real (A : (⟨S8x2048x2048, .f32⟩ : BufTy).Contents (Elt Ideal)) (hA : Cert.Spec.IsReal A)
    (hpos : ∀ (b : Fin 8) (n : Fin 2048), 0 < Cert.Spec.deg A b n) (b : Fin 8) (n : Fin 2048) :
    ∃ d : ℝ, Ideal.pow (Cert.Spec.deg A b n) (Ideal.ofBits .f32 0xBF000000#32) = (d : EReal)
      ∧ Ideal.rsqrt (Cert.Spec.deg A b n) = (d : EReal) := by
  obtain ⟨r, hr⟩ := deg_real A hA b n
  have hr0 : 0 < r := by
    have h := hpos b n
    rw [hr] at h
    exact EReal.coe_pos.mp h
  have hd : Ideal.rsqrt (r : EReal) = (((Real.sqrt r)⁻¹ : ℝ) : EReal) := by
    rw [Ideal.rsqrt_coe, if_neg (not_lt.mpr hr0.le), if_neg hr0.ne']
  refine ⟨(Real.sqrt r)⁻¹, ?_, ?_⟩
  · rw [hr, ofBits_neg_half, pow_neg_half_eq_rsqrt r hr0, hd]
  · rw [hr, hd]

/-- With real entries the support is a real number: a finite sum of products of reals. -/
theorem support_real (X : (⟨S8x2048x256, .f32⟩ : BufTy).Contents (Elt Ideal))
    (W : (⟨S256x256, .f32⟩ : BufTy).Contents (Elt Ideal)) (hX : Cert.Spec.IsReal X) (hW : Cert.Spec.IsReal W)
    (b : Fin 8) (m : Fin 2048) (o : Fin 256) : ∃ s : ℝ, Cert.Spec.support X W b m o = (s : EReal) := by
  obtain ⟨x, hx⟩ := exists_real X hX
  obtain ⟨w, hw⟩ := exists_real W hW
  refine ⟨∑ i : Fin 256, x (ix3 b m i) * w (ix2 i o), ?_⟩
  unfold Cert.Spec.support
  rw [coe_sum]
  refine Finset.sum_congr rfl fun i _ => ?_
  rw [hx, hw, EReal.coe_mul]

/-! ## The reference is the layer -/

/-- With real entries and positive shifted degrees, the reference's result is the layer. At (b, n, o) both sides are
    the same sum plus bias[o]: the reference's two scales are the specification's inverse square roots (scale_real),
    every factor is the coercion of a real, and the real identity scaled_sum_eq finishes. -/
theorem ref_eq_layer (X : (⟨S8x2048x256, .f32⟩ : BufTy).Contents (Elt Ideal))
    (A : (⟨S8x2048x2048, .f32⟩ : BufTy).Contents (Elt Ideal))
    (W : (⟨S256x256, .f32⟩ : BufTy).Contents (Elt Ideal)) (Bv : (⟨S256, .f32⟩ : BufTy).Contents (Elt Ideal))
    (hX : Cert.Spec.IsReal X) (hA : Cert.Spec.IsReal A) (hW : Cert.Spec.IsReal W)
    (hpos : ∀ (b : Fin 8) (n : Fin 2048), 0 < Cert.Spec.deg A b n) :
    Cert.ReferenceIdeal.Read.val_main_v15 (F := Ideal) X A W Bv = Cert.Spec.layer X A W Bv := by
  funext j
  obtain ⟨b, n, o, rfl⟩ : ∃ (b : Fin 8) (n : Fin 2048) (o : Fin 256), j = ix3 b n o :=
    ⟨j 0, j 1, j 2, eq_ix3 j⟩
  rw [v15_read, Cert.Spec.layer_ix3]
  unfold Cert.Spec.layerAt
  -- the bias is the same summand on both sides
  refine congrArg (· + Bv (ix1 o)) ?_
  -- real witnesses: a for the adjacency, d m for the scale of node m (both conventions), s m for the support
  obtain ⟨a, ha⟩ := exists_real A hA
  choose d hdp hdr using scale_real A hA hpos b
  choose s hs using fun m => support_real X W hX hW b m o
  simp only [hdp, hdr, hs]
  simp only [ha]
  -- both sides are now products and sums of coercions: pull the coercion outside and conclude over the reals
  simp only [← EReal.coe_mul, ← coe_sum]
  exact congrArg (fun x : ℝ => (x : EReal)) (scaled_sum_eq (fun m => a (ix3 b n m)) s d (d n))

end Cert.RefValue

end
-- ==== Proof.lean ====
/-
  The certificate of the graph-convolution kernel against its reference: `Cert.Claim` (Defs.lean).

  THE MATHEMATICS. For a batch b, a node n and an output channel o, with A the adjacency array, X the node features,
  W the weights, and deg b n = (∑ m, A[b,n,m]) + ε (ε the binary32 number nearest 1e-5), the layer is

      out[b,n,o] = (∑ m, A[b,n,m] · ((∑ i, X[b,m,i] · W[i,o]) · deg(b,m)^(-1/2))) · deg(b,n)^(-1/2) + bias[o]

  (Proof/Spec.lean). The kernel computes it batch by batch: one grid point holds one batch's whole adjacency block,
  so the row sums, the column scale folded into the support, the big product (taken in two halves of 1024 columns)
  and the row scale all come from that one block. Over the extended reals a change of float format is the identity and
  a product into a zero accumulator is the plain sum, so the kernel's output array IS that function of the argument
  arrays, on every input (Proof/KernelPayload.lean: the body's value at an entry; Proof/KernelValue.lean: the eight
  blocks are the eight batches).

  The reference forms D^(-1/2) A D^(-1/2) first, entry by entry as (p n · A[b,n,m]) · p m with p n = deg(b,n) ^ (-1/2)
  taken as a POWER, and multiplies by X W afterwards. Two things separate it from the kernel's arrangement. The power
  x ^ (-1/2) and the inverse square root agree exactly where x > 0 (both are (√x)⁻¹ there); at x = 0 and x < 0 the
  two follow different conventions, and the reference's own expression is undefined there. And moving the factor
  deg(b,n)^(-1/2) across the sum over m is distributivity, which on the extended reals holds for real numbers and
  fails at the infinities. So the precondition asks that every input entry be finite and that every shifted degree
  be positive; under it every factor is a real number and the two arrangements are equal by distributing one
  factor over a finite sum and reordering each product (Proof/PreFacts.lean: what the precondition says;
  Proof/RefValue.lean: the reference is the layer).

  THE FIVE CONJUNCTS. The three frames (each program terminates without a fault and leaves its arguments unchanged):
  the two kernel programs' by the frame of the pipelined region, the reference's by its run with the result
  forgotten. The idealized kernel is the kernel's own text read over the extended reals, with nothing rewritten, so
  what `preserves` asks is `True`. `algebraic`: both idealized programs, run from memories agreeing on the
  arguments, end with the same output array, the layer of those arguments.
-/
import proofs.«109411_j46084999086083_2_alg».proof.Defs
import proofs.«109411_j46084999086083_2_alg».proof.Proof.Gen.Kernel
import proofs.«109411_j46084999086083_2_alg».proof.Proof.Gen.Kernel.Skeleton
import proofs.«109411_j46084999086083_2_alg».proof.Proof.Gen.Kernel.Launch
import proofs.«109411_j46084999086083_2_alg».proof.Proof.Gen.Kernel.Points
import proofs.«109411_j46084999086083_2_alg».proof.Proof.Gen.Kernel.Frame
import proofs.«109411_j46084999086083_2_alg».proof.Proof.Gen.KernelIdeal
import proofs.«109411_j46084999086083_2_alg».proof.Proof.Gen.KernelIdeal.Skeleton
import proofs.«109411_j46084999086083_2_alg».proof.Proof.Gen.KernelIdeal.Launch
import proofs.«109411_j46084999086083_2_alg».proof.Proof.Gen.KernelIdeal.Points
import proofs.«109411_j46084999086083_2_alg».proof.Proof.Gen.KernelIdeal.Frame
import proofs.«109411_j46084999086083_2_alg».proof.Proof.Gen.ReferenceIdeal
import proofs.«109411_j46084999086083_2_alg».proof.Proof.Gen.Pre_finite_inputs
import proofs.«109411_j46084999086083_2_alg».proof.Proof.Gen.KernelIdeal.Value
import proofs.«109411_j46084999086083_2_alg».proof.Proof.Gen.ReferenceIdeal.Run
import proofs.«109411_j46084999086083_2_alg».proof.Proof.Gen.ReferenceIdeal.Read
import proofs.«109411_j46084999086083_2_alg».proof.Proof.KernelValue
import proofs.«109411_j46084999086083_2_alg».proof.Proof.PreFacts
import proofs.«109411_j46084999086083_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed terminates without a fault and leaves its four arguments unchanged, on every input. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference terminates without a fault and leaves its arguments unchanged: its run, with what it says of the
    result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten on the way to the extended reals, so there is nothing to restate. -/
theorem preserves : Cert.preserves_Kernel_KernelIdeal := trivial

/-- From memories agreeing on the arguments, with every input entry finite and every shifted degree positive, both
    programs end with the layer of the arguments in their output arrays. The kernel's run ends there on every input;
    the reference's run ends at its operations' composed term, which under the precondition's two facts (real
    entries, positive shifted degrees) is the layer. -/
theorem algebraic : Cert.algebraic_KernelIdeal_ReferenceIdeal := by
  intro m ρ m' ρ' hpre hagree
  refine ⟨fun c => Cert.Spec.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  -- the reference's arguments are the kernel's
  rw [(hagree c).1, (hagree c).2.1, (hagree c).2.2.1, (hagree c).2.2.2]
  -- the run's composed term is the last stage of the reference read one operation at a time
  rw [Cert.ReferenceIdeal.Read.val_main_v15_eq]
  -- the precondition gives real entries and positive shifted degrees, under which the reference is the layer
  obtain ⟨hX, hA, hW, hpos⟩ := Cert.PreFacts.of_pre _ _ _ _ (hpre c)
  exact Cert.RefValue.ref_eq_layer _ _ _ _ hX hA hW hpos

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
